-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x19 : Shape := ⟨2, ![64, 19]⟩
abbrev S19 : Shape := ⟨1, ![19]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x19 : S_.BroadcastsInDim S64x19 (![] : Fin 0 → Fin S64x19.rank)
  reducesTo_S64x19_S_d0_1 : S64x19.ReducesTo [0, 1] S_
  bcast_S_S19 : S_.BroadcastsInDim S19 (![] : Fin 0 → Fin S19.rank)
  reducesTo_S19_S_d0 : S19.ReducesTo [0] S_

variable [Facts]

def fn_part1 {F : FTy → Type} [FloatOps F] (main_arg6 : FVec F S64 .f32) (main_arg7 : FVec F S64x19 .f32) (main_arg8 : FVec F S19 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x19 .f32 := Host.absf main_arg7
  let main_cst_8 : FVec F S_ .f32 := constant S_ .f32 0x7F800000#32
  let main_v25 : FVec F S64x19 .f32 := broadcastInDim S64x19 ![] bcast_S_S64x19 main_cst_8
  let main_v26 : IVec S64x19 1 := cmpf .olt main_v24 main_v25
  let main_c_9 : IVec S_ 1 := constantI S_ 1 1#1
  let main_v27 : IVec S_ 1 := (fun x v => Host.reduce IntOp.andi x v reducesTo_S64x19_S_d0_1 h_S_) main_v26 main_c_9
  let main_v28 : IVec S_ 1 := andi main_v23 main_v27
  let main_v29 : FVec F S19 .f32 := Host.absf main_arg8
  let main_cst_10 : FVec F S_ .f32 := constant S_ .f32 0x7F800000#32
  let main_v30 : FVec F S19 .f32 := broadcastInDim S19 ![] bcast_S_S19 main_cst_10
  let main_v31 : IVec S19 1 := cmpf .olt main_v29 main_v30
  let main_c_11 : IVec S_ 1 := constantI S_ 1 1#1
  let main_v32 : IVec S_ 1 := (fun x v => Host.reduce IntOp.andi x v reducesTo_S19_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : IVec S50000 32) (main_arg3 : FVec F S128x64 .f32) (main_arg4 : FVec F S64 .f32) (main_arg5 : FVec F S64x64 .f32) (main_arg6 : FVec F S64 .f32) (main_arg7 : FVec F S64x19 .f32) (main_arg8 : FVec F S19 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x19 : Shape := ⟨2, ![64, 19]⟩
abbrev S19 : Shape := ⟨1, ![19]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S5000x128 : Shape := ⟨2, ![5000, 128]⟩
abbrev S5000x64 : Shape := ⟨2, ![5000, 64]⟩
abbrev S1650000x64 : Shape := ⟨2, ![1650000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x19 : Shape := ⟨2, ![512, 19]⟩
abbrev S1x19 : Shape := ⟨2, ![1, 19]⟩

abbrev nBuf : Space → Nat
  | .hbm => 125
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x19, .f32⟩
  | .hbm, ⟨8, _⟩ => ⟨S19, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S50000, .i32⟩
  | .hbm, ⟨14, _⟩ => ⟨S1650000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x64, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x64, .f32⟩
  | .hbm, ⟨59, _⟩ => ⟨S1650000x1, .f32⟩
  | .hbm, ⟨60, _⟩ => ⟨S1650000x64, .f32⟩
  | .hbm, ⟨61, _⟩ => ⟨S1650000x64, .f32⟩
  | .hbm, ⟨62, _⟩ => ⟨S_, .f32⟩
  | .hbm, ⟨63, _⟩ => ⟨S50000x64, .f32⟩
  | .hbm, ⟨64, _⟩ => ⟨S1650000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .i32⟩
  | .hbm, ⟨70, _⟩ => ⟨S1650000, .i32⟩
  | .hbm, ⟨71, _⟩ => ⟨S1650000, .i1⟩
  | .hbm, ⟨72, _⟩ => ⟨S_, .i32⟩
  | .hbm, ⟨73, _⟩ => ⟨S1650000, .i32⟩
  | .hbm, ⟨74, _⟩ => ⟨S1650000, .i32⟩
  | .hbm, ⟨75, _⟩ => ⟨S1650000, .i32⟩
  | .hbm, ⟨76, _⟩ => ⟨S1650000x1, .i32⟩
  | .hbm, ⟨77, _⟩ => ⟨S1650000, .f32⟩
  | .hbm, ⟨78, _⟩ => ⟨S_, .i32⟩
  | .hbm, ⟨79, _⟩ => ⟨S1650000, .i32⟩
  | .hbm, ⟨80, _⟩ => ⟨S1650000, .i1⟩
  | .hbm, ⟨81, _⟩ => ⟨S_, .i32⟩
  | .hbm, ⟨82, _⟩ => ⟨S1650000, .i32⟩
  | .hbm, ⟨83, _⟩ => ⟨S1650000, .i32⟩
  | .hbm, ⟨84, _⟩ => ⟨S1650000, .i32⟩
  | .hbm, ⟨85, _⟩ => ⟨S1650000x1, .i32⟩
  | .hbm, ⟨86, _⟩ => ⟨S1650000, .f32⟩
  | .hbm, ⟨87, _⟩ => ⟨S1650000, .f32⟩
  | .hbm, ⟨88, _⟩ => ⟨S_, .i32⟩
  | .hbm, ⟨89, _⟩ => ⟨S1650000, .i32⟩
  | .hbm, ⟨90, _⟩ => ⟨S1650000, .i1⟩
  | .hbm, ⟨91, _⟩ => ⟨S_, .i32⟩
  | .hbm, ⟨92, _⟩ => ⟨S1650000, .i32⟩
  | .hbm, ⟨93, _⟩ => ⟨S1650000, .i32⟩
  | .hbm, ⟨94, _⟩ => ⟨S1650000, .i32⟩
  | .hbm, ⟨95, _⟩ => ⟨S1650000x1, .i32⟩
  | .hbm, ⟨96, _⟩ => ⟨S1650000x64, .f32⟩
  | .hbm, ⟨97, _⟩ => ⟨S1650000x1, .f32⟩
  | .hbm, ⟨98, _⟩ => ⟨S1650000x64, .f32⟩
  | .hbm, ⟨99, _⟩ => ⟨S1650000x64, .f32⟩
  | .hbm, ⟨100, _⟩ => ⟨S_, .f32⟩
  | .hbm, ⟨101, _⟩ => ⟨S50000x64, .f32⟩
  | .hbm, ⟨102, _⟩ => ⟨S1650000x1, .i32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S_, .f32⟩
  | .hbm, ⟨107, _⟩ => ⟨S512x64, .f32⟩
  | .hbm, ⟨108, _⟩ => ⟨S50000x1, .i32⟩
  | .hbm, ⟨109, _⟩ => ⟨S512x64, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S512, .f32⟩
  | .hbm, ⟨114, _⟩ => ⟨S50000x1, .i32⟩
  | .hbm, ⟨115, _⟩ => ⟨S512, .f32⟩
  | .hbm, ⟨116, _⟩ => ⟨S_, .f32⟩
  | .hbm, ⟨117, _⟩ => ⟨S512, .f32⟩
  | .hbm, ⟨118, _⟩ => ⟨S512, .f32⟩
  | .hbm, ⟨119, _⟩ => ⟨S512x1, .f32⟩
  | .hbm, ⟨120, _⟩ => ⟨S512x64, .f32⟩
  | .hbm, ⟨121, _⟩ => ⟨S512x64, .f32⟩
  | .hbm, ⟨122, _⟩ => ⟨S512x19, .f32⟩
  | .hbm, ⟨123, _⟩ => ⟨S1x19, .f32⟩
  | .hbm, ⟨124, _⟩ => ⟨S512x19, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S512x64, .f32⟩
  | .local _ .vmem, ⟨21, _⟩ => ⟨S64x19, .f32⟩
  | .local _ .vmem, ⟨22, _⟩ => ⟨S512x19, .f32⟩
  | .local _ .vmem, ⟨23, _⟩ => ⟨S512x19, .f32⟩
  | .local _ .vmem, ⟨24, _⟩ => ⟨S1x19, .f32⟩
  | .local _ .vmem, ⟨25, _⟩ => ⟨S512x19, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_cst_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc5_sem0_0 : DmaSem sig := 23
abbrev cc5_sem1_0 : DmaSem sig := 24
abbrev cc5_sem2_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S64x19 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512x19 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S512x19 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x19 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S512x19 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x19_S64x19_0_0 : ∀ a, (![0, 0] : Fin 2 → Nat) a + S64x19.size a ≤ S64x19.size a
  h_S64x19 : 0 < S64x19.numel
  inb_S512x19_S512x19_0_0 : ∀ a, (![0, 0] : Fin 2 → Nat) a + S512x19.size a ≤ S512x19.size a
  h_S512x19 : 0 < S512x19.numel
  shapeCasts_S19_S1x19 : S19.ShapeCasts S1x19
  shapeCasts_S512x19_S512x19 : S512x19.ShapeCasts S512x19
  inb_S1x19_S1x19_0_0 : ∀ a, (![0, 0] : Fin 2 → Nat) a + S1x19.size a ≤ S1x19.size a
  h_S1x19 : 0 < S1x19.numel
  shapeCasts_S1x19_S1x19 : S1x19.ShapeCasts S1x19
  broadcasts_S1x19_S512x19 : S1x19.Broadcasts S512x19
  scatter_S50000_S1650000x1_S1650000_n_0_0_1_wf : ScatterDims.WF S50000 S1650000x1 S1650000 [] [0] [0] 1
  dot_S5000x128_S128x64_S5000x64_1_0_0_1_n_n_wf : DotDims.WF S5000x128 S128x64 S5000x64 [1] [0] [0] [1] [] []
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x64_S5000x64_1_0_0_1_n_n_wf : DotDims.WF S5000x64 S64x64 S5000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x19_S512x19_1_0_0_1_n_n_wf : DotDims.WF S512x64 S64x19 S512x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x19.size a ≤ S64x19.size a
  hwx4_1 : ∀ i : grid4.Coords, EltTy.bits .f32 = 32 ∨ (Rect.block (s := S64x19) S64x19.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S512x19.size a ≤ S512x19.size a
  hwx4_2 : ∀ i : grid4.Coords, EltTy.bits .f32 = 32 ∨ (Rect.block (s := S512x19) S512x19.size (cc4_transform_2 i) (hinb4_2 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S512x19.size a ≤ S512x19.size a
  hwx5_0 : ∀ i : grid5.Coords, EltTy.bits .f32 = 32 ∨ (Rect.block (s := S512x19) S512x19.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x19.size a ≤ S1x19.size a
  hwx5_1 : ∀ i : grid5.Coords, EltTy.bits .f32 = 32 ∨ (Rect.block (s := S1x19) S1x19.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S512x19.size a ≤ S512x19.size a
  hwx5_2 : ∀ i : grid5.Coords, EltTy.bits .f32 = 32 ∨ (Rect.block (s := S512x19) S512x19.size (cc5_transform_2 i) (hinb5_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x19_S512x19_1_0_0_1_n_n : DotDims S512x64 S64x19 S512x19 where
  lhsContracting := [1]
  rhsContracting := [0]
  lhsNonContracting := [0]
  rhsNonContracting := [1]
  lhsBatch := []
  rhsBatch := []
  wf := dot_S512x64_S64x19_S512x19_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v88) S512x64.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x19.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v89) S512x19.size cc4_transform_2 reads4_2 true false 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v89) S512x19.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v90) S1x19.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S512x19.size cc5_transform_2 reads5_2 true false 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x19 : Shape := ⟨2, ![64, 19]⟩
abbrev S19 : Shape := ⟨1, ![19]⟩
abbrev S1x1600000 : Shape := ⟨2, ![1, 1600000]⟩
abbrev S1600000 : Shape := ⟨1, ![1600000]⟩
abbrev S50000x64 : Shape := ⟨2, ![50000, 64]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x19 : Shape := ⟨2, ![512, 19]⟩
abbrev S1x19 : Shape := ⟨2, ![1, 19]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x19, .f32⟩
  | 8 => ⟨S19, .f32⟩
  | 9 => ⟨S1x1600000, .i32⟩
  | 10 => ⟨S1600000, .i32⟩
  | 11 => ⟨S1x1600000, .i32⟩
  | 12 => ⟨S1600000, .i32⟩
  | 13 => ⟨S50000x64, .f32⟩
  | 14 => ⟨S50000, .i32⟩
  | 15 => ⟨S1650000, .i32⟩
  | 16 => ⟨S1650000, .i32⟩
  | 17 => ⟨S_, .f32⟩
  | 18 => ⟨S1650000, .f32⟩
  | 19 => ⟨S_, .f32⟩
  | 20 => ⟨S50000, .f32⟩
  | 21 => ⟨S1650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S1650000, .i32⟩
  | 33 => ⟨S1650000, .i1⟩
  | 34 => ⟨S_, .i32⟩
  | 35 => ⟨S1650000, .i32⟩
  | 36 => ⟨S1650000, .i32⟩
  | 37 => ⟨S1650000, .i32⟩
  | 38 => ⟨S1650000x1, .i32⟩
  | 39 => ⟨S1650000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S1650000, .f32⟩
  | 50 => ⟨S_, .i32⟩
  | 51 => ⟨S1650000, .i32⟩
  | 52 => ⟨S1650000, .i1⟩
  | 53 => ⟨S_, .i32⟩
  | 54 => ⟨S1650000, .i32⟩
  | 55 => ⟨S1650000, .i32⟩
  | 56 => ⟨S1650000, .i32⟩
  | 57 => ⟨S1650000x1, .i32⟩
  | 58 => ⟨S1650000x64, .f32⟩
  | 59 => ⟨S1650000x1, .f32⟩
  | 60 => ⟨S1650000x64, .f32⟩
  | 61 => ⟨S1650000x64, .f32⟩
  | 62 => ⟨S_, .f32⟩
  | 63 => ⟨S50000x64, .f32⟩
  | 64 => ⟨S1650000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S50000, .i32⟩
  | 74 => ⟨S1650000, .i32⟩
  | 75 => ⟨S1650000, .i32⟩
  | 76 => ⟨S_, .f32⟩
  | 77 => ⟨S1650000, .f32⟩
  | 78 => ⟨S_, .f32⟩
  | 79 => ⟨S50000, .f32⟩
  | 80 => ⟨S1650000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S1650000, .i32⟩
  | 92 => ⟨S1650000, .i1⟩
  | 93 => ⟨S_, .i32⟩
  | 94 => ⟨S1650000, .i32⟩
  | 95 => ⟨S1650000, .i32⟩
  | 96 => ⟨S1650000, .i32⟩
  | 97 => ⟨S1650000x1, .i32⟩
  | 98 => ⟨S1650000, .f32⟩
  | 99 => ⟨S_, .i32⟩
  | 100 => ⟨S1650000, .i32⟩
  | 101 => ⟨S1650000, .i1⟩
  | 102 => ⟨S_, .i32⟩
  | 103 => ⟨S1650000, .i32⟩
  | 104 => ⟨S1650000, .i32⟩
  | 105 => ⟨S1650000, .i32⟩
  | 106 => ⟨S1650000x1, .i32⟩
  | 107 => ⟨S1650000, .f32⟩
  | 108 => ⟨S1650000, .f32⟩
  | 109 => ⟨S_, .i32⟩
  | 110 => ⟨S1650000, .i32⟩
  | 111 => ⟨S1650000, .i1⟩
  | 112 => ⟨S_, .i32⟩
  | 113 => ⟨S1650000, .i32⟩
  | 114 => ⟨S1650000, .i32⟩
  | 115 => ⟨S1650000, .i32⟩
  | 116 => ⟨S1650000x1, .i32⟩
  | 117 => ⟨S1650000x64, .f32⟩
  | 118 => ⟨S1650000x1, .f32⟩
  | 119 => ⟨S1650000x64, .f32⟩
  | 120 => ⟨S1650000x64, .f32⟩
  | 121 => ⟨S_, .f32⟩
  | 122 => ⟨S50000x64, .f32⟩
  | 123 => ⟨S1650000x1, .i32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .f32⟩
  | 1 => ⟨S512x64, .f32⟩
  | 2 => ⟨S50000x1, .i32⟩
  | 3 => ⟨S512x64, .f32⟩
  | 4 => ⟨S_, .f32⟩
  | 5 => ⟨S50000, .f32⟩
  | 6 => ⟨S_, .f32⟩
  | 7 => ⟨S512, .f32⟩
  | 8 => ⟨S50000x1, .i32⟩
  | 9 => ⟨S512, .f32⟩
  | 10 => ⟨S_, .f32⟩
  | 11 => ⟨S512, .f32⟩
  | 12 => ⟨S512, .f32⟩
  | 13 => ⟨S512x1, .f32⟩
  | 14 => ⟨S512x64, .f32⟩
  | 15 => ⟨S512x64, .f32⟩
  | 16 => ⟨S512x19, .f32⟩
  | 17 => ⟨S1x19, .f32⟩
  | 18 => ⟨S512x19, .f32⟩
  | 19 => ⟨S512x19, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_23 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S19_S1x19_1 : S19.BroadcastsInDim S1x19 (![1] : Fin 1 → Fin S1x19.rank)
  bcast_S1x19_S512x19_0_1 : S1x19.BroadcastsInDim S512x19 (![0, 1] : Fin 2 → Fin S512x19.rank)
  dot_S50000x128_S128x64_S50000x64_1_0_0_1_n_n_wf : DotDims.WF S50000x128 S128x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x19_S512x19_1_0_0_1_n_n_wf : DotDims.WF S512x64 S64x19 S512x19 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x19_S512x19_1_0_0_1_n_n : DotDims S512x64 S64x19 S512x19 where
  lhsContracting := [1]
  rhsContracting := [0]
  lhsNonContracting := [0]
  rhsNonContracting := [1]
  lhsBatch := []
  rhsBatch := []
  wf := dot_S512x64_S64x19_S512x19_1_0_0_1_n_n_wf

class Facts : Prop extends Facts₀ where

variable [Facts]
-- ==== Proof.KernelRun.lean ====
/-
  The run of the six-region program with its final memory NAMED: every weakly fair execution terminates, nothing
  faulting, and every buffer that outlives the regions ends at the contents of the last segment boundary — the fold
  of the host stretches and of the regions' write-backs from the launch memory (`Gen.W12`). The arguments' buffers and
  the result's are among them, so the frame and the value of the result are both read off this one statement.
-/
import proofs.«133438_j9345848836262_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that is not scoped to a region ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result's buffer ends at the last boundary's contents, and the nine arguments end as launched. -/
theorem run_named : θ_run defs (onTc (τ := τ) (main (F := F))) ⟨m, fun _ => 0, ρ⟩ (fun r => ∀ c : Dev nD,
      r.2.mem ((c.tc : Thread nD τ).loc main_v91) = W12 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨h c _ (mem_uc main_v91 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)
    (run_all m ρ)

end Cert.KernelIdeal.Whole

end
-- ==== Proof.Dense.lean ====
/-
  The three pointwise forms the dense stages of a two-layer graph convolution take, each as one function of whole
  arrays, index by index, over the extended reals.

  * `lin x w`: the matrix product, entry (p, q) the sum over k of x (p, k) · w (k, q).
  * `biasRow a b`: a row vector added to every row, entry (p, q) = a (p, q) + b (0, q).
  * `biasRowRelu a b z`: the same followed by the maximum with a scalar z (the rectifier when z is zero).

  Sums and products of extended reals are commutative and associative everywhere, infinities included, and nothing
  below distributes, cancels or divides: no entry needs to be finite.
-/
import Idealize.ShloMosaic.Lib.ValueIdx
import Idealize.ShloMosaic.PureOps.Ideal

open scoped BigOperators

noncomputable section

namespace Cert.Dense

open Idealize.ShloMosaic Idealize.ShloMosaic.ValueIdx

/-- An [a, b] array of extended reals. -/
abbrev Mat (a b : Nat) : Type := (⟨2, ![a, b]⟩ : Shape).Idx → EReal

/-- The row coordinate of an index of an [a, b] array, as a number below a. -/
abbrev row {a b : Nat} (i : (⟨2, ![a, b]⟩ : Shape).Idx) : Fin a := ⟨(i 0).val, idx2_lt0 i⟩

/-- The column coordinate of an index of an [a, b] array, as a number below b. -/
abbrev col {a b : Nat} (i : (⟨2, ![a, b]⟩ : Shape).Idx) : Fin b := ⟨(i 1).val, idx2_lt1 i⟩

/-- The matrix product: entry (p, q) is the sum over k of x (p, k) · w (k, q). -/
def lin {A K B : Nat} (x : Mat A K) (w : Mat K B) : Mat A B :=
  fun i => ∑ k : Fin K, x (ix2 (row i) k) * w (ix2 k (col i))

theorem lin_apply {A K B : Nat} (x : Mat A K) (w : Mat K B) (p : Fin A) (q : Fin B) :
    lin x w (ix2 p q) = ∑ k : Fin K, x (ix2 p k) * w (ix2 k q) := rfl

/-- A row vector added to every row. -/
def biasRow {A B : Nat} (a : Mat A B) (b : Mat 1 B) : Mat A B :=
  fun i => a i + b (ix2 (0 : Fin 1) (col i))

theorem biasRow_apply {A B : Nat} (a : Mat A B) (b : Mat 1 B) (p : Fin A) (q : Fin B) :
    biasRow a b (ix2 p q) = a (ix2 p q) + b (ix2 (0 : Fin 1) q) := rfl

/-- A row vector added to every row, then the maximum with the scalar z. -/
def biasRowRelu {A B : Nat} (a : Mat A B) (b : Mat 1 B) (z : EReal) : Mat A B :=
  fun i => max (a i + b (ix2 (0 : Fin 1) (col i))) z

theorem biasRowRelu_apply {A B : Nat} (a : Mat A B) (b : Mat 1 B) (z : EReal) (p : Fin A) (q : Fin B) :
    biasRowRelu a b z (ix2 p q) = max (a (ix2 p q) + b (ix2 (0 : Fin 1) q)) z := rfl

end Cert.Dense

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.Stage0.lean ====
/-
  Region 0: a matrix product tiled over the rows. Each grid point takes 5000 rows of the left array and the whole
  right array and stores their product — a sum over the 128 contracted positions, the change of float format on
  the way in being the identity on extended reals and the accumulator starting at zero. The row blocks tile the
  result, so after the last point the result array is the product of the two whole arrays as the region found them.
-/
import proofs.«133438_j9345848836262_1_alg».proof.Proof.Gen.KernelIdeal.Frame
import proofs.«133438_j9345848836262_1_alg».proof.Proof.Dense
import proofs.«133438_j9345848836262_1_alg».proof.Proof.LibPlainDot
import Idealize.ShloMosaic.Lib.Pipeline.Value
import Idealize.ShloMosaic.PureOps.Ideal.Laws

set_option maxRecDepth 16384

open scoped BigOperators

noncomputable section

namespace Cert.KernelIdeal.Stage0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One block of the product, entry (p, q): the sum over the contracted position k of x (p, k) · w (k, q). -/
theorem block_apply (x : Vec Ideal S5000x128 .f32) (w : Vec Ideal S128x64 .f32) (p : Fin 5000) (q : Fin 64) :
    k0_pay1 (F := Ideal) x w (ix2 p q) = ∑ k : Fin 128, x (ix2 p k) * w (ix2 k q) := by
  unfold k0_pay1
  exact (Ideal.matmul_constant_zero_apply dot_S5000x128_S128x64_S5000x64_1_0_0_1_n_n none _ _ (ix2 p q)).trans
    (Cert.PlainDot.sum_eq dot_S5000x128_S128x64_S5000x64_1_0_0_1_n_n rfl rfl rfl rfl rfl rfl rfl rfl x w p q)

/-- The index maps over the grid: the left and the result windows move down the rows with the point, the right
    window stays on its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 5000·t … of the left array. -/
theorem left_apply (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg0 : S50000x128.Idx → Elt Ideal .f32) i := by
  obtain ⟨e00, e01, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (y 0).val = (i 0).val; rw [e00, h0]; omega
  | ⟨1, _⟩ => show win0_0.index t (1 : Fin 2) * 128 + 1 * (y 1).val = (i 1).val; rw [e01, h1]; omega

/-- The right window's one block is the whole right array. -/
theorem right_apply (c : Dev nD) (t : Fin cfg0.N) (y : S128x64.Idx) (i : S128x64.Idx)
    (h0 : (i 0).val = (y 0).val) (h1 : (i 1).val = (y 1).val) :
    (iblk0 V c 1 t : Vec Ideal S128x64 .f32) y = (V c main_arg3 : S128x64.Idx → Elt Ideal .f32) i := by
  obtain ⟨-, -, e10, e11, -⟩ := idx_facts t
  unfold iblk0
  rw [View.read_apply]
  show V c main_arg3 _ = V c main_arg3 _
  refine congrArg (V c main_arg3) (funext fun a => Fin.ext ?_)
  match a with
  | ⟨0, _⟩ => show win0_1.index t (0 : Fin 2) * 128 + 1 * (y 0).val = (i 0).val; rw [e10, h0]; omega
  | ⟨1, _⟩ => show win0_1.index t (1 : Fin 2) * 64 + 1 * (y 1).val = (i 1).val; rw [e11, h1]; omega

/-- What point t writes back is block t of the product of the two arrays. -/
theorem flushed_eq (c : Dev nD) (t : Fin cfg0.N) :
    (dat0 V c).flushed 2 t = ((cfg0.win 2).blk t).view.read (Elt Ideal) (Cert.Dense.lin (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  refine (block_apply (iblk0 V c 0 t) (iblk0 V c 1 t) p q).trans ?_
  rw [View.read_apply]
  unfold Cert.Dense.lin
  refine Finset.sum_congr rfl fun k _ => ?_
  refine congrArg₂ (· * ·) (left_apply V c t (ix2 p k) _ ?_ rfl) (right_apply V c t (ix2 k q) _ rfl ?_)
  · show win0_2.index t (0 : Fin 2) * 5000 + 1 * p.val = 5000 * t.val + p.val
    rw [e20]; omega
  · show win0_2.index t (1 : Fin 2) * 64 + 1 * q.val = q.val
    rw [e21]; omega

/-- An index of the result array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v15).slice (win0_2.rect t)).set ↔ _
  rw [View.set_slice_whole, Rect.mem_set_unit]
  exact Iff.rfl

/-- The row blocks cover the result array: row r is in the block of point r / 5000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨-, -, -, -, e20, e21⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e21]; omega

/-- After the region the result array is the product of the two arrays the region read (`A`, `B` name them). -/
theorem final (c : Dev nD) (A : Cert.Dense.Mat 50000 128) (B : Cert.Dense.Mat 128 64)
    (hA : V c main_arg0 = A) (hB : V c main_arg3 = B) : (dat0 V c).arrAt 2 cfg0.N = Cert.Dense.lin A B := by
  subst hA hB
  exact (dat0 V c).arrAt_eq_of_cover 2 _ (fun t _ => flushed_eq V c t) cover

end Cert.KernelIdeal.Stage0

end
-- ==== Proof.Stage1.lean ====
/-
  Region 1: a row vector added to every row, then the rectifier, tiled over the rows. Each grid point takes 5000 rows of the
  left array and the one row of the right array and stores, at (p, q), the left entry plus the row's entry q,
  or zero if that is larger. The row
  blocks tile the result, so after the last point the result array is that function of the two whole arrays as the
  region found them.
-/
import proofs.«133438_j9345848836262_1_alg».proof.Proof.Gen.KernelIdeal.Frame
import proofs.«133438_j9345848836262_1_alg».proof.Proof.Dense
import Idealize.ShloMosaic.Lib.Pipeline.Value
import Idealize.ShloMosaic.Lib.ValueLayout

set_option maxRecDepth 16384

open scoped BigOperators

noncomputable section

namespace Cert.KernelIdeal.Stage1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One block, entry (p, q): the left entry plus the row's entry q, or zero if that is larger. -/
theorem block_apply (a : Vec Ideal S5000x64 .f32) (b : Vec Ideal S1x64 .f32) (p : Fin 5000) (q : Fin 64) :
    k1_pay1 (F := Ideal) a b (ix2 p q) = max (a (ix2 p q) + b (ix2 (0 : Fin 1) q)) (Ideal.ofBits .f32 0x00000000#32) := by
  unfold k1_pay1
  refine (maximumf_apply _ _ (ix2 p q)).trans ?_
  refine congrArg₂ max ?_ rfl
  refine (addf_apply _ _ (ix2 p q)).trans ?_
  rw [shapeCast_self, shapeCast_self]
  exact congrArg (a (ix2 p q) + ·) (broadcastTo_1b_ab_apply b _ p q)

/-- The index maps over the grid: the left and the result windows move down the rows with the point, the row
    vector's window stays on its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point t is rows 5000·t … of the left array. -/
theorem left_apply (c : Dev nD) (t : Fin cfg1.N) (y : S5000x64.Idx) (i : S50000x64.Idx)
    (h0 : (i 0).val = 5000 * t.val + (y 0).val) (h1 : (i 1).val = (y 1).val) :
    (iblk1 V c 0 t : Vec Ideal S5000x64 .f32) y = (V c main_v43 : S50000x64.Idx → Elt Ideal .f32) i := by
  obtain ⟨e00, e01, -⟩ := idx_facts t
  unfold iblk1
  rw [View.read_apply]
  show V c main_v43 _ = V c main_v43 _
  refine congrArg (V c main_v43) (funext fun a => Fin.ext ?_)
  match a with
  | ⟨0, _⟩ => show win1_0.index t (0 : Fin 2) * 5000 + 1 * (y 0).val = (i 0).val; rw [e00, h0]; omega
  | ⟨1, _⟩ => show win1_0.index t (1 : Fin 2) * 64 + 1 * (y 1).val = (i 1).val; rw [e01, h1]; omega

/-- The row vector's one block is the whole one-row array. -/
theorem right_apply (c : Dev nD) (t : Fin cfg1.N) (y : S1x64.Idx) (i : S1x64.Idx)
    (h0 : (i 0).val = (y 0).val) (h1 : (i 1).val = (y 1).val) :
    (iblk1 V c 1 t : Vec Ideal S1x64 .f32) y = (V c main_v44 : S1x64.Idx → Elt Ideal .f32) i := by
  obtain ⟨-, -, e10, e11, -⟩ := idx_facts t
  unfold iblk1
  rw [View.read_apply]
  show V c main_v44 _ = V c main_v44 _
  refine congrArg (V c main_v44) (funext fun a => Fin.ext ?_)
  match a with
  | ⟨0, _⟩ => show win1_1.index t (0 : Fin 2) * 1 + 1 * (y 0).val = (i 0).val; rw [e10, h0]; omega
  | ⟨1, _⟩ => show win1_1.index t (1 : Fin 2) * 64 + 1 * (y 1).val = (i 1).val; rw [e11, h1]; omega

/-- What point t writes back is block t of the two arrays' combination. -/
theorem flushed_eq (c : Dev nD) (t : Fin cfg1.N) :
    (dat1 V c).flushed 2 t = ((cfg1.win 2).blk t).view.read (Elt Ideal) (Cert.Dense.biasRowRelu (V c main_v43) (V c main_v44) (Ideal.ofBits .f32 0x00000000#32)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  refine (block_apply (iblk1 V c 0 t) (iblk1 V c 1 t) p q).trans ?_
  rw [View.read_apply]
  unfold Cert.Dense.biasRowRelu
  refine congrArg₂ max (congrArg₂ (· + ·) (left_apply V c t (ix2 p q) _ ?_ ?_) (right_apply V c t (ix2 (0 : Fin 1) q) _ rfl ?_)) rfl
  · show win1_2.index t (0 : Fin 2) * 5000 + 1 * p.val = 5000 * t.val + p.val
    rw [e20]; omega
  · show win1_2.index t (1 : Fin 2) * 64 + 1 * q.val = q.val
    rw [e21]; omega
  · show win1_2.index t (1 : Fin 2) * 64 + 1 * q.val = q.val
    rw [e21]; omega

/-- An index of the result array is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- The row blocks cover the result array: row r is in the block of point r / 5000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, e20, e21⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e21]; omega

/-- After the region the result array is that combination of the two arrays the region read (`A`, `B` name them). -/
theorem final (c : Dev nD) (A : Cert.Dense.Mat 50000 64) (B : Cert.Dense.Mat 1 64)
    (hA : V c main_v43 = A) (hB : V c main_v44 = B) : (dat1 V c).arrAt 2 cfg1.N = Cert.Dense.biasRowRelu A B (Ideal.ofBits .f32 0x00000000#32) := by
  subst hA hB
  exact (dat1 V c).arrAt_eq_of_cover 2 _ (fun t _ => flushed_eq V c t) cover

end Cert.KernelIdeal.Stage1

end
-- ==== Proof.Stage2.lean ====
/-
  Region 2: a matrix product tiled over the rows. Each grid point takes 5000 rows of the left array and the whole
  right array and stores their product — a sum over the 64 contracted positions, the change of float format on
  the way in being the identity on extended reals and the accumulator starting at zero. The row blocks tile the
  result, so after the last point the result array is the product of the two whole arrays as the region found them.
-/
import proofs.«133438_j9345848836262_1_alg».proof.Proof.Gen.KernelIdeal.Frame
import proofs.«133438_j9345848836262_1_alg».proof.Proof.Dense
import proofs.«133438_j9345848836262_1_alg».proof.Proof.LibPlainDot
import Idealize.ShloMosaic.Lib.Pipeline.Value
import Idealize.ShloMosaic.PureOps.Ideal.Laws

set_option maxRecDepth 16384

open scoped BigOperators

noncomputable section

namespace Cert.KernelIdeal.Stage2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One block of the product, entry (p, q): the sum over the contracted position k of x (p, k) · w (k, q). -/
theorem block_apply (x : Vec Ideal S5000x64 .f32) (w : Vec Ideal S64x64 .f32) (p : Fin 5000) (q : Fin 64) :
    k2_pay1 (F := Ideal) x w (ix2 p q) = ∑ k : Fin 64, x (ix2 p k) * w (ix2 k q) := by
  unfold k2_pay1
  rw [shapeCast_self]
  exact (Ideal.matmul_constant_zero_apply dot_S5000x64_S64x64_S5000x64_1_0_0_1_n_n none _ _ (ix2 p q)).trans
    (Cert.PlainDot.sum_eq dot_S5000x64_S64x64_S5000x64_1_0_0_1_n_n rfl rfl rfl rfl rfl rfl rfl rfl x w p q)

/-- The index maps over the grid: the left and the result windows move down the rows with the point, the right
    window stays on its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 5000·t … of the left array. -/
theorem left_apply (c : Dev nD) (t : Fin cfg2.N) (y : S5000x64.Idx) (i : S50000x64.Idx)
    (h0 : (i 0).val = 5000 * t.val + (y 0).val) (h1 : (i 1).val = (y 1).val) :
    (iblk2 V c 0 t : Vec Ideal S5000x64 .f32) y = (V c main_v45 : S50000x64.Idx → Elt Ideal .f32) i := by
  obtain ⟨e00, e01, -⟩ := idx_facts t
  unfold iblk2
  rw [View.read_apply]
  show V c main_v45 _ = V c main_v45 _
  refine congrArg (V c main_v45) (funext fun a => Fin.ext ?_)
  match a with
  | ⟨0, _⟩ => show win2_0.index t (0 : Fin 2) * 5000 + 1 * (y 0).val = (i 0).val; rw [e00, h0]; omega
  | ⟨1, _⟩ => show win2_0.index t (1 : Fin 2) * 64 + 1 * (y 1).val = (i 1).val; rw [e01, h1]; omega

/-- The right window's one block is the whole right array. -/
theorem right_apply (c : Dev nD) (t : Fin cfg2.N) (y : S64x64.Idx) (i : S64x64.Idx)
    (h0 : (i 0).val = (y 0).val) (h1 : (i 1).val = (y 1).val) :
    (iblk2 V c 1 t : Vec Ideal S64x64 .f32) y = (V c main_arg5 : S64x64.Idx → Elt Ideal .f32) i := by
  obtain ⟨-, -, e10, e11, -⟩ := idx_facts t
  unfold iblk2
  rw [View.read_apply]
  show V c main_arg5 _ = V c main_arg5 _
  refine congrArg (V c main_arg5) (funext fun a => Fin.ext ?_)
  match a with
  | ⟨0, _⟩ => show win2_1.index t (0 : Fin 2) * 64 + 1 * (y 0).val = (i 0).val; rw [e10, h0]; omega
  | ⟨1, _⟩ => show win2_1.index t (1 : Fin 2) * 64 + 1 * (y 1).val = (i 1).val; rw [e11, h1]; omega

/-- What point t writes back is block t of the product of the two arrays. -/
theorem flushed_eq (c : Dev nD) (t : Fin cfg2.N) :
    (dat2 V c).flushed 2 t = ((cfg2.win 2).blk t).view.read (Elt Ideal) (Cert.Dense.lin (V c main_v45) (V c main_arg5)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  refine (block_apply (iblk2 V c 0 t) (iblk2 V c 1 t) p q).trans ?_
  rw [View.read_apply]
  unfold Cert.Dense.lin
  refine Finset.sum_congr rfl fun k _ => ?_
  refine congrArg₂ (· * ·) (left_apply V c t (ix2 p k) _ ?_ rfl) (right_apply V c t (ix2 k q) _ rfl ?_)
  · show win2_2.index t (0 : Fin 2) * 5000 + 1 * p.val = 5000 * t.val + p.val
    rw [e20]; omega
  · show win2_2.index t (1 : Fin 2) * 64 + 1 * q.val = q.val
    rw [e21]; omega

/-- An index of the result array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The row blocks cover the result array: row r is in the block of point r / 5000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, e20, e21⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e21]; omega

/-- After the region the result array is the product of the two arrays the region read (`A`, `B` name them). -/
theorem final (c : Dev nD) (A : Cert.Dense.Mat 50000 64) (B : Cert.Dense.Mat 64 64)
    (hA : V c main_v45 = A) (hB : V c main_arg5 = B) : (dat2 V c).arrAt 2 cfg2.N = Cert.Dense.lin A B := by
  subst hA hB
  exact (dat2 V c).arrAt_eq_of_cover 2 _ (fun t _ => flushed_eq V c t) cover

end Cert.KernelIdeal.Stage2

end
-- ==== Proof.Stage3.lean ====
/-
  Region 3: a row vector added to every row, tiled over the rows. Each grid point takes 5000 rows of the
  left array and the one row of the right array and stores, at (p, q), the left entry plus the row's entry q. The row
  blocks tile the result, so after the last point the result array is that function of the two whole arrays as the
  region found them.
-/
import proofs.«133438_j9345848836262_1_alg».proof.Proof.Gen.KernelIdeal.Frame
import proofs.«133438_j9345848836262_1_alg».proof.Proof.Dense
import Idealize.ShloMosaic.Lib.Pipeline.Value
import Idealize.ShloMosaic.Lib.ValueLayout

set_option maxRecDepth 16384

open scoped BigOperators

noncomputable section

namespace Cert.KernelIdeal.Stage3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One block, entry (p, q): the left entry plus the row's entry q. -/
theorem block_apply (a : Vec Ideal S5000x64 .f32) (b : Vec Ideal S1x64 .f32) (p : Fin 5000) (q : Fin 64) :
    k3_pay1 (F := Ideal) a b (ix2 p q) = a (ix2 p q) + b (ix2 (0 : Fin 1) q) := by
  unfold k3_pay1
  refine (addf_apply _ _ (ix2 p q)).trans ?_
  rw [shapeCast_self, shapeCast_self]
  exact congrArg (a (ix2 p q) + ·) (broadcastTo_1b_ab_apply b _ p q)

/-- The index maps over the grid: the left and the result windows move down the rows with the point, the row
    vector's window stays on its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left window's block at point t is rows 5000·t … of the left array. -/
theorem left_apply (c : Dev nD) (t : Fin cfg3.N) (y : S5000x64.Idx) (i : S50000x64.Idx)
    (h0 : (i 0).val = 5000 * t.val + (y 0).val) (h1 : (i 1).val = (y 1).val) :
    (iblk3 V c 0 t : Vec Ideal S5000x64 .f32) y = (V c main_v74 : S50000x64.Idx → Elt Ideal .f32) i := by
  obtain ⟨e00, e01, -⟩ := idx_facts t
  unfold iblk3
  rw [View.read_apply]
  show V c main_v74 _ = V c main_v74 _
  refine congrArg (V c main_v74) (funext fun a => Fin.ext ?_)
  match a with
  | ⟨0, _⟩ => show win3_0.index t (0 : Fin 2) * 5000 + 1 * (y 0).val = (i 0).val; rw [e00, h0]; omega
  | ⟨1, _⟩ => show win3_0.index t (1 : Fin 2) * 64 + 1 * (y 1).val = (i 1).val; rw [e01, h1]; omega

/-- The row vector's one block is the whole one-row array. -/
theorem right_apply (c : Dev nD) (t : Fin cfg3.N) (y : S1x64.Idx) (i : S1x64.Idx)
    (h0 : (i 0).val = (y 0).val) (h1 : (i 1).val = (y 1).val) :
    (iblk3 V c 1 t : Vec Ideal S1x64 .f32) y = (V c main_v75 : S1x64.Idx → Elt Ideal .f32) i := by
  obtain ⟨-, -, e10, e11, -⟩ := idx_facts t
  unfold iblk3
  rw [View.read_apply]
  show V c main_v75 _ = V c main_v75 _
  refine congrArg (V c main_v75) (funext fun a => Fin.ext ?_)
  match a with
  | ⟨0, _⟩ => show win3_1.index t (0 : Fin 2) * 1 + 1 * (y 0).val = (i 0).val; rw [e10, h0]; omega
  | ⟨1, _⟩ => show win3_1.index t (1 : Fin 2) * 64 + 1 * (y 1).val = (i 1).val; rw [e11, h1]; omega

/-- What point t writes back is block t of the two arrays' combination. -/
theorem flushed_eq (c : Dev nD) (t : Fin cfg3.N) :
    (dat3 V c).flushed 2 t = ((cfg3.win 2).blk t).view.read (Elt Ideal) (Cert.Dense.biasRow (V c main_v74) (V c main_v75)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  refine (block_apply (iblk3 V c 0 t) (iblk3 V c 1 t) p q).trans ?_
  rw [View.read_apply]
  unfold Cert.Dense.biasRow
  refine congrArg₂ (· + ·) (left_apply V c t (ix2 p q) _ ?_ ?_) (right_apply V c t (ix2 (0 : Fin 1) q) _ rfl ?_)
  · show win3_2.index t (0 : Fin 2) * 5000 + 1 * p.val = 5000 * t.val + p.val
    rw [e20]; omega
  · show win3_2.index t (1 : Fin 2) * 64 + 1 * q.val = q.val
    rw [e21]; omega
  · show win3_2.index t (1 : Fin 2) * 64 + 1 * q.val = q.val
    rw [e21]; omega

/-- An index of the result array is in point t's block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v76).slice (win3_2.rect t)).set ↔ _
  rw [View.set_slice_whole, Rect.mem_set_unit]
  exact Iff.rfl

/-- The row blocks cover the result array: row r is in the block of point r / 5000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  have ht : (i 0).val / 5000 < cfg3.N := by rw [hN]; omega
  obtain ⟨-, -, -, -, e20, e21⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e21]; omega

/-- After the region the result array is that combination of the two arrays the region read (`A`, `B` name them). -/
theorem final (c : Dev nD) (A : Cert.Dense.Mat 50000 64) (B : Cert.Dense.Mat 1 64)
    (hA : V c main_v74 = A) (hB : V c main_v75 = B) : (dat3 V c).arrAt 2 cfg3.N = Cert.Dense.biasRow A B := by
  subst hA hB
  exact (dat3 V c).arrAt_eq_of_cover 2 _ (fun t _ => flushed_eq V c t) cover

end Cert.KernelIdeal.Stage3

end
-- ==== Proof.Stage4.lean ====
/-
  Region 4: a matrix product tiled over the rows. Each grid point takes 512 rows of the left array and the whole
  right array and stores their product — a sum over the 64 contracted positions, the change of float format on
  the way in being the identity on extended reals and the accumulator starting at zero. The row blocks tile the
  result, so after the last point the result array is the product of the two whole arrays as the region found them.
-/
import proofs.«133438_j9345848836262_1_alg».proof.Proof.Gen.KernelIdeal.Frame
import proofs.«133438_j9345848836262_1_alg».proof.Proof.Dense
import proofs.«133438_j9345848836262_1_alg».proof.Proof.LibPlainDot
import Idealize.ShloMosaic.Lib.Pipeline.Value
import Idealize.ShloMosaic.PureOps.Ideal.Laws

set_option maxRecDepth 16384

open scoped BigOperators

noncomputable section

namespace Cert.KernelIdeal.Stage4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One block of the product, entry (p, q): the sum over the contracted position k of x (p, k) · w (k, q). -/
theorem block_apply (x : Vec Ideal S512x64 .f32) (w : Vec Ideal S64x19 .f32) (p : Fin 512) (q : Fin 19) :
    k4_pay1 (F := Ideal) x w (ix2 p q) = ∑ k : Fin 64, x (ix2 p k) * w (ix2 k q) := by
  unfold k4_pay1
  rw [shapeCast_self]
  exact (Ideal.matmul_constant_zero_apply dot_S512x64_S64x19_S512x19_1_0_0_1_n_n none _ _ (ix2 p q)).trans
    (Cert.PlainDot.sum_eq dot_S512x64_S64x19_S512x19_1_0_0_1_n_n rfl rfl rfl rfl rfl rfl rfl rfl x w p q)

/-- The index maps over the grid: the left and the result windows move down the rows with the point, the right
    window stays on its one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left window's block at point t is rows 512·t … of the left array. -/
theorem left_apply (c : Dev nD) (t : Fin cfg4.N) (y : S512x64.Idx) (i : S512x64.Idx)
    (h0 : (i 0).val = 512 * t.val + (y 0).val) (h1 : (i 1).val = (y 1).val) :
    (iblk4 V c 0 t : Vec Ideal S512x64 .f32) y = (V c main_v88 : S512x64.Idx → Elt Ideal .f32) i := by
  obtain ⟨e00, e01, -⟩ := idx_facts t
  unfold iblk4
  rw [View.read_apply]
  show V c main_v88 _ = V c main_v88 _
  refine congrArg (V c main_v88) (funext fun a => Fin.ext ?_)
  match a with
  | ⟨0, _⟩ => show win4_0.index t (0 : Fin 2) * 512 + 1 * (y 0).val = (i 0).val; rw [e00, h0]; omega
  | ⟨1, _⟩ => show win4_0.index t (1 : Fin 2) * 64 + 1 * (y 1).val = (i 1).val; rw [e01, h1]; omega

/-- The right window's one block is the whole right array. -/
theorem right_apply (c : Dev nD) (t : Fin cfg4.N) (y : S64x19.Idx) (i : S64x19.Idx)
    (h0 : (i 0).val = (y 0).val) (h1 : (i 1).val = (y 1).val) :
    (iblk4 V c 1 t : Vec Ideal S64x19 .f32) y = (V c main_arg7 : S64x19.Idx → Elt Ideal .f32) i := by
  obtain ⟨-, -, e10, e11, -⟩ := idx_facts t
  unfold iblk4
  rw [View.read_apply]
  show V c main_arg7 _ = V c main_arg7 _
  refine congrArg (V c main_arg7) (funext fun a => Fin.ext ?_)
  match a with
  | ⟨0, _⟩ => show win4_1.index t (0 : Fin 2) * 64 + 1 * (y 0).val = (i 0).val; rw [e10, h0]; omega
  | ⟨1, _⟩ => show win4_1.index t (1 : Fin 2) * 19 + 1 * (y 1).val = (i 1).val; rw [e11, h1]; omega

/-- What point t writes back is block t of the product of the two arrays. -/
theorem flushed_eq (c : Dev nD) (t : Fin cfg4.N) :
    (dat4 V c).flushed 2 t = ((cfg4.win 2).blk t).view.read (Elt Ideal) (Cert.Dense.lin (V c main_v88) (V c main_arg7)) := by
  show (cfg4.win 2).cut (grid4.coords t) ((dat4 V c).after 2 t) = _
  rw [after4_2]
  unfold out4_2
  rw [View.canon_unit_zero hz]
  simp only [View.ld_unit_zero (S := S512x64) hz, View.ld_unit_zero (S := S64x19) hz]
  obtain ⟨e00, e01, e10, e11, e20, e21⟩ := idx_facts t
  funext j
  obtain ⟨p, q, rfl⟩ : ∃ (p : Fin 512) (q : Fin 19), j = ix2 p q := ⟨j 0, j 1, eq_ix2 j⟩
  refine (block_apply (iblk4 V c 0 t) (iblk4 V c 1 t) p q).trans ?_
  rw [View.read_apply]
  unfold Cert.Dense.lin
  refine Finset.sum_congr rfl fun k _ => ?_
  refine congrArg₂ (· * ·) (left_apply V c t (ix2 p k) _ ?_ rfl) (right_apply V c t (ix2 k q) _ rfl ?_)
  · show win4_2.index t (0 : Fin 2) * 512 + 1 * p.val = 512 * t.val + p.val
    rw [e20]; omega
  · show win4_2.index t (1 : Fin 2) * 19 + 1 * q.val = q.val
    rw [e21]; omega

/-- An index of the result array is in point t's block iff each coordinate is in the block's range on its axis. -/
theorem mem_blk (t : Fin cfg4.N) (i : S512x19.Idx) :
    i ∈ ((cfg4.win 2).blk t).view.set ↔ ∀ a : Fin 2, win4_2.index t a * S512x19.size a ≤ (i a).val ∧ (i a).val < win4_2.index t a * S512x19.size a + S512x19.size a := by
  show i ∈ ((View.whole main_v89).slice (win4_2.rect t)).set ↔ _
  rw [View.set_slice_whole, Rect.mem_set_unit]
  exact Iff.rfl

/-- The row blocks cover the result array: row r is in the block of point r / 512. -/
theorem cover (i : S512x19.Idx) : ∃ t : Fin cfg4.N, (cfg4.win 2).flush t = true ∧ i ∈ ((cfg4.win 2).blk t).view.set := by
  have hi0 : (i 0).val < 512 := (i 0).isLt
  have hi1 : (i 1).val < 19 := (i 1).isLt
  have hN : cfg4.N = 1 := N_4
  have ht : (i 0).val / 512 < cfg4.N := by rw [hN]; omega
  obtain ⟨-, -, -, -, e20, e21⟩ := idx_facts ⟨(i 0).val / 512, ht⟩
  refine ⟨⟨(i 0).val / 512, ht⟩, flush4_2 _, ?_⟩
  rw [mem_blk]
  intro a
  match a with
  | ⟨0, _⟩ =>
    show win4_2.index ⟨(i 0).val / 512, ht⟩ (0 : Fin 2) * 512 ≤ (i 0).val ∧ (i 0).val < win4_2.index ⟨(i 0).val / 512, ht⟩ (0 : Fin 2) * 512 + 512
    rw [e20]; show (i 0).val / 512 * 512 ≤ (i 0).val ∧ (i 0).val < (i 0).val / 512 * 512 + 512; omega
  | ⟨1, _⟩ =>
    show win4_2.index ⟨(i 0).val / 512, ht⟩ (1 : Fin 2) * 19 ≤ (i 1).val ∧ (i 1).val < win4_2.index ⟨(i 0).val / 512, ht⟩ (1 : Fin 2) * 19 + 19
    rw [e21]; omega

/-- After the region the result array is the product of the two arrays the region read (`A`, `B` name them). -/
theorem final (c : Dev nD) (A : Cert.Dense.Mat 512 64) (B : Cert.Dense.Mat 64 19)
    (hA : V c main_v88 = A) (hB : V c main_arg7 = B) : (dat4 V c).arrAt 2 cfg4.N = Cert.Dense.lin A B := by
  subst hA hB
  exact (dat4 V c).arrAt_eq_of_cover 2 _ (fun t _ => flushed_eq V c t) cover

end Cert.KernelIdeal.Stage4

end
-- ==== Proof.Stage5.lean ====
/-
  Region 5: a row vector added to every row, tiled over the rows. Each grid point takes 512 rows of the
  left array and the one row of the right array and stores, at (p, q), the left entry plus the row's entry q. The row
  blocks tile the result, so after the last point the result array is that function of the two whole arrays as the
  region found them.
-/
import proofs.«133438_j9345848836262_1_alg».proof.Proof.Gen.KernelIdeal.Frame
import proofs.«133438_j9345848836262_1_alg».proof.Proof.Dense
import Idealize.ShloMosaic.Lib.Pipeline.Value
import Idealize.ShloMosaic.Lib.ValueLayout

set_option maxRecDepth 16384

open scoped BigOperators

noncomputable section

namespace Cert.KernelIdeal.Stage5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One block, entry (p, q): the left entry plus the row's entry q. -/
theorem block_apply (a : Vec Ideal S512x19 .f32) (b : Vec Ideal S1x19 .f32) (p : Fin 512) (q : Fin 19) :
    k5_pay1 (F := Ideal) a b (ix2 p q) = a (ix2 p q) + b (ix2 (0 : Fin 1) q) := by
  unfold k5_pay1
  refine (addf_apply _ _ (ix2 p q)).trans ?_
  rw [shapeCast_self, shapeCast_self]
  exact congrArg (a (ix2 p q) + ·) (broadcastTo_1b_ab_apply b _ p q)

/-- The index maps over the grid: the left and the result windows move down the rows with the point, the row
    vector's window stays on its one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The left window's block at point t is rows 512·t … of the left array. -/
theorem left_apply (c : Dev nD) (t : Fin cfg5.N) (y : S512x19.Idx) (i : S512x19.Idx)
    (h0 : (i 0).val = 512 * t.val + (y 0).val) (h1 : (i 1).val = (y 1).val) :
    (iblk5 V c 0 t : Vec Ideal S512x19 .f32) y = (V c main_v89 : S512x19.Idx → Elt Ideal .f32) i := by
  obtain ⟨e00, e01, -⟩ := idx_facts t
  unfold iblk5
  rw [View.read_apply]
  show V c main_v89 _ = V c main_v89 _
  refine congrArg (V c main_v89) (funext fun a => Fin.ext ?_)
  match a with
  | ⟨0, _⟩ => show win5_0.index t (0 : Fin 2) * 512 + 1 * (y 0).val = (i 0).val; rw [e00, h0]; omega
  | ⟨1, _⟩ => show win5_0.index t (1 : Fin 2) * 19 + 1 * (y 1).val = (i 1).val; rw [e01, h1]; omega

/-- The row vector's one block is the whole one-row array. -/
theorem right_apply (c : Dev nD) (t : Fin cfg5.N) (y : S1x19.Idx) (i : S1x19.Idx)
    (h0 : (i 0).val = (y 0).val) (h1 : (i 1).val = (y 1).val) :
    (iblk5 V c 1 t : Vec Ideal S1x19 .f32) y = (V c main_v90 : S1x19.Idx → Elt Ideal .f32) i := by
  obtain ⟨-, -, e10, e11, -⟩ := idx_facts t
  unfold iblk5
  rw [View.read_apply]
  show V c main_v90 _ = V c main_v90 _
  refine congrArg (V c main_v90) (funext fun a => Fin.ext ?_)
  match a with
  | ⟨0, _⟩ => show win5_1.index t (0 : Fin 2) * 1 + 1 * (y 0).val = (i 0).val; rw [e10, h0]; omega
  | ⟨1, _⟩ => show win5_1.index t (1 : Fin 2) * 19 + 1 * (y 1).val = (i 1).val; rw [e11, h1]; omega

/-- What point t writes back is block t of the two arrays' combination. -/
theorem flushed_eq (c : Dev nD) (t : Fin cfg5.N) :
    (dat5 V c).flushed 2 t = ((cfg5.win 2).blk t).view.read (Elt Ideal) (Cert.Dense.biasRow (V c main_v89) (V c main_v90)) := by
  show (cfg5.win 2).cut (grid5.coords t) ((dat5 V c).after 2 t) = _
  rw [after5_2]
  unfold out5_2
  rw [View.canon_unit_zero hz]
  simp only [View.ld_unit_zero (S := S512x19) hz, View.ld_unit_zero (S := S1x19) hz]
  obtain ⟨e00, e01, e10, e11, e20, e21⟩ := idx_facts t
  funext j
  obtain ⟨p, q, rfl⟩ : ∃ (p : Fin 512) (q : Fin 19), j = ix2 p q := ⟨j 0, j 1, eq_ix2 j⟩
  refine (block_apply (iblk5 V c 0 t) (iblk5 V c 1 t) p q).trans ?_
  rw [View.read_apply]
  unfold Cert.Dense.biasRow
  refine congrArg₂ (· + ·) (left_apply V c t (ix2 p q) _ ?_ ?_) (right_apply V c t (ix2 (0 : Fin 1) q) _ rfl ?_)
  · show win5_2.index t (0 : Fin 2) * 512 + 1 * p.val = 512 * t.val + p.val
    rw [e20]; omega
  · show win5_2.index t (1 : Fin 2) * 19 + 1 * q.val = q.val
    rw [e21]; omega
  · show win5_2.index t (1 : Fin 2) * 19 + 1 * q.val = q.val
    rw [e21]; omega

/-- An index of the result array is in point t's block iff each coordinate is in the block's range on its axis. -/
theorem mem_blk (t : Fin cfg5.N) (i : S512x19.Idx) :
    i ∈ ((cfg5.win 2).blk t).view.set ↔ ∀ a : Fin 2, win5_2.index t a * S512x19.size a ≤ (i a).val ∧ (i a).val < win5_2.index t a * S512x19.size a + S512x19.size a := by
  show i ∈ ((View.whole main_v91).slice (win5_2.rect t)).set ↔ _
  rw [View.set_slice_whole, Rect.mem_set_unit]
  exact Iff.rfl

/-- The row blocks cover the result array: row r is in the block of point r / 512. -/
theorem cover (i : S512x19.Idx) : ∃ t : Fin cfg5.N, (cfg5.win 2).flush t = true ∧ i ∈ ((cfg5.win 2).blk t).view.set := by
  have hi0 : (i 0).val < 512 := (i 0).isLt
  have hi1 : (i 1).val < 19 := (i 1).isLt
  have hN : cfg5.N = 1 := N_5
  have ht : (i 0).val / 512 < cfg5.N := by rw [hN]; omega
  obtain ⟨-, -, -, -, e20, e21⟩ := idx_facts ⟨(i 0).val / 512, ht⟩
  refine ⟨⟨(i 0).val / 512, ht⟩, flush5_2 _, ?_⟩
  rw [mem_blk]
  intro a
  match a with
  | ⟨0, _⟩ =>
    show win5_2.index ⟨(i 0).val / 512, ht⟩ (0 : Fin 2) * 512 ≤ (i 0).val ∧ (i 0).val < win5_2.index ⟨(i 0).val / 512, ht⟩ (0 : Fin 2) * 512 + 512
    rw [e20]; show (i 0).val / 512 * 512 ≤ (i 0).val ∧ (i 0).val < (i 0).val / 512 * 512 + 512; omega
  | ⟨1, _⟩ =>
    show win5_2.index ⟨(i 0).val / 512, ht⟩ (1 : Fin 2) * 19 ≤ (i 1).val ∧ (i 1).val < win5_2.index ⟨(i 0).val / 512, ht⟩ (1 : Fin 2) * 19 + 19
    rw [e21]; omega

/-- After the region the result array is that combination of the two arrays the region read (`A`, `B` name them). -/
theorem final (c : Dev nD) (A : Cert.Dense.Mat 512 19) (B : Cert.Dense.Mat 1 19)
    (hA : V c main_v89 = A) (hB : V c main_v90 = B) : (dat5 V c).arrAt 2 cfg5.N = Cert.Dense.biasRow A B := by
  subst hA hB
  exact (dat5 V c).arrAt_eq_of_cover 2 _ (fun t _ => flushed_eq V c t) cover

end Cert.KernelIdeal.Stage5

end
-- ==== Proof.LibJoinPair.lean ====
/-
  Two arrays joined along an axis, with the side condition stated of the shapes alone.

  The joined array `concatenate t a [⟨s₁, x₁⟩, ⟨s₂, x₂⟩] h` carries a side condition `h` whose statement mentions the list
  of (shape, array) pairs, although it only reads the shapes. That dependence stands in the way of rewriting the two
  arrays in place: a rewriting pass keeps the whole list fixed. `joinPair` is the same function with the side condition
  stated of `[s₁, s₂]`; the two are equal by unfolding, for any element type, any shapes and any axis. Rewriting a
  two-piece join to `joinPair` lets a later pass reach the two arrays.
-/
import Idealize.ShloMosaic.PureOps.ShapeOps

noncomputable section

namespace Cert.JoinPair

open Idealize.ShloMosaic

/-- Two arrays joined along axis `a` of the result shape `t`. -/
def joinPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece join is `joinPair` of its pieces: a rewrite rule from the list form to the form whose arrays can be
    rewritten. -/
theorem concatenate_pair_eq {α : Type} (t : Shape) (a : Fin t.rank) (s₁ s₂ : Shape) (x₁ : s₁.Idx → α) (x₂ : s₂.Idx → α)
    (h : Shape.Concatenates (List.map (fun p : (s : Shape) × (s.Idx → α) => p.1) [⟨s₁, x₁⟩, ⟨s₂, x₂⟩]) t a) :
    concatenate t a [⟨s₁, x₁⟩, ⟨s₂, x₂⟩] h = joinPair t a s₁ s₂ h x₁ x₂ := rfl

end Cert.JoinPair

end
-- ==== Proof.RefStages.lean ====
/-
  The reference's dense stages as the plain functions of `Dense`: each of its three matrix products is `lin` of the
  stage before it and a weight array, each bias addition `biasRow` (the first one followed by the rectifier:
  `biasRowRelu` at zero) of the stage before it and the bias vector viewed as a one-row array. The reference places
  the vector as a row and repeats the row down the array; read at (p, q) that is the vector's entry q, which is what
  the one-row view of the vector holds at (0, q).
-/
import proofs.«133438_j9345848836262_1_alg».proof.Proof.RefRead
import proofs.«133438_j9345848836262_1_alg».proof.Proof.Dense
import Idealize.ShloMosaic.Lib.ValueLayout

open scoped BigOperators

noncomputable section

namespace Cert.ReferenceIdeal.Stages

open Cert.ReferenceIdeal Cert.ReferenceIdeal.ReadP Idealize.ShloMosaic Idealize.ShloMosaic.ValueIdx

/-- The first layer's product is `lin` of the node features and the first weight array. -/
theorem v4_eq (x0 : (⟨S50000x128, .f32⟩ : BufTy).Contents (Elt Ideal)) (x3 : (⟨S128x64, .f32⟩ : BufTy).Contents (Elt Ideal)) :
    val_main_v4 (F := Ideal) x0 x3 = Cert.Dense.lin x0 x3 := by
  funext i
  obtain ⟨p, q, rfl⟩ : ∃ (p : Fin 50000) (q : Fin 64), i = ix2 p q := ⟨i 0, i 1, eq_ix2 i⟩
  refine (val_main_v4_apply x0 x3 (ix2 p q)).trans ?_
  refine Finset.sum_congr rfl fun k _ => ?_
  have el : lidx_main_v4 (ix2 p q) k = ix2 p k := funext fun a => Fin.ext (by match a with | ⟨0, _⟩ => rfl | ⟨1, _⟩ => rfl)
  have er : ridx_main_v4 (ix2 p q) k = ix2 k q := funext fun a => Fin.ext (by match a with | ⟨0, _⟩ => rfl | ⟨1, _⟩ => rfl)
  rw [el, er]

/-- The first layer's bias and rectifier: `biasRowRelu` at zero of the aggregated array and the bias as a row. -/
theorem v47_eq (x0 : (⟨S50000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal))
    (h : (⟨1, ![64]⟩ : Shape).ShapeCasts ⟨2, ![1, 64]⟩) :
    val_main_v47 (F := Ideal) x0 x1 x3 x4
      = Cert.Dense.biasRowRelu (val_main_v43 (F := Ideal) x0 x1 x3) (shapeCast ⟨2, ![1, 64]⟩ x4 h) (Ideal.ofBits .f32 0x00000000#32) := by
  funext i
  obtain ⟨p, q, rfl⟩ : ∃ (p : Fin 50000) (q : Fin 64), i = ix2 p q := ⟨i 0, i 1, eq_ix2 i⟩
  refine (val_main_v47_apply x0 x1 x3 x4 (ix2 p q)).trans ?_
  rw [val_main_v46_apply, val_main_v45_apply, val_main_v44_apply, val_main_call1_v0_apply, val_main_call1_cst_apply]
  have e : idx_main_v44 (idx_main_v45 (ix2 p q)) = ix1 q := funext fun a => Fin.ext (by match a with | ⟨0, _⟩ => rfl)
  rw [e, Cert.Dense.biasRowRelu_apply, shapeCast_a_1a_apply]
  rfl

/-- The second layer's product is `lin` of the first layer's output and the second weight array. -/
theorem v48_eq (x0 : (⟨S50000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    val_main_v48 (F := Ideal) x0 x1 x3 x4 x5 = Cert.Dense.lin (val_main_v47 (F := Ideal) x0 x1 x3 x4) x5 := by
  funext i
  obtain ⟨p, q, rfl⟩ : ∃ (p : Fin 50000) (q : Fin 64), i = ix2 p q := ⟨i 0, i 1, eq_ix2 i⟩
  refine (val_main_v48_apply x0 x1 x3 x4 x5 (ix2 p q)).trans ?_
  refine Finset.sum_congr rfl fun k _ => ?_
  have el : lidx_main_v48 (ix2 p q) k = ix2 p k := funext fun a => Fin.ext (by match a with | ⟨0, _⟩ => rfl | ⟨1, _⟩ => rfl)
  have er : ridx_main_v48 (ix2 p q) k = ix2 k q := funext fun a => Fin.ext (by match a with | ⟨0, _⟩ => rfl | ⟨1, _⟩ => rfl)
  rw [el, er]

/-- The second layer's bias: `biasRow` of the aggregated array and the bias as a row. -/
theorem v90_eq (x0 : (⟨S50000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (h : (⟨1, ![64]⟩ : Shape).ShapeCasts ⟨2, ![1, 64]⟩) :
    val_main_v90 (F := Ideal) x0 x1 x3 x4 x5 x6
      = Cert.Dense.biasRow (val_main_v87 (F := Ideal) x0 x1 x3 x4 x5) (shapeCast ⟨2, ![1, 64]⟩ x6 h) := by
  funext i
  obtain ⟨p, q, rfl⟩ : ∃ (p : Fin 50000) (q : Fin 64), i = ix2 p q := ⟨i 0, i 1, eq_ix2 i⟩
  refine (val_main_v90_apply x0 x1 x3 x4 x5 x6 (ix2 p q)).trans ?_
  rw [val_main_v89_apply, val_main_v88_apply]
  have e : idx_main_v88 (idx_main_v89 (ix2 p q)) = ix1 q := funext fun a => Fin.ext (by match a with | ⟨0, _⟩ => rfl)
  rw [e, Cert.Dense.biasRow_apply, shapeCast_a_1a_apply]
  rfl

/-- The output product is `lin` of the pooled array and the output weight array. -/
theorem v103_eq (x0 : (⟨S50000x128, .f32⟩ : BufTy).Contents (Elt Ideal)) (x1 : (⟨S2x1600000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x19, .f32⟩ : BufTy).Contents (Elt Ideal)) :
    val_main_v103 (F := Ideal) x0 x1 x2 x3 x4 x5 x6 x7 = Cert.Dense.lin (val_main_v102 (F := Ideal) x0 x1 x2 x3 x4 x5 x6) x7 := by
  funext i
  obtain ⟨p, q, rfl⟩ : ∃ (p : Fin 512) (q : Fin 19), i = ix2 p q := ⟨i 0, i 1, eq_ix2 i⟩
  refine (val_main_v103_apply x0 x1 x2 x3 x4 x5 x6 x7 (ix2 p q)).trans ?_
  refine Finset.sum_congr rfl fun k _ => ?_
  have el : lidx_main_v103 (ix2 p q) k = ix2 p k := funext fun a => Fin.ext (by match a with | ⟨0, _⟩ => rfl | ⟨1, _⟩ => rfl)
  have er : ridx_main_v103 (ix2 p q) k = ix2 k q := funext fun a => Fin.ext (by match a with | ⟨0, _⟩ => rfl | ⟨1, _⟩ => rfl)
  rw [el, er]

/-- The output bias: `biasRow` of the output product and the bias as a row. -/
theorem v106_eq (x0 : (⟨S50000x128, .f32⟩ : BufTy).Contents (Elt Ideal)) (x1 : (⟨S2x1600000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x19, .f32⟩ : BufTy).Contents (Elt Ideal)) (x8 : (⟨S19, .f32⟩ : BufTy).Contents (Elt Ideal))
    (h : (⟨1, ![19]⟩ : Shape).ShapeCasts ⟨2, ![1, 19]⟩) :
    val_main_v106 (F := Ideal) x0 x1 x2 x3 x4 x5 x6 x7 x8
      = Cert.Dense.biasRow (val_main_v103 (F := Ideal) x0 x1 x2 x3 x4 x5 x6 x7) (shapeCast ⟨2, ![1, 19]⟩ x8 h) := by
  funext i
  obtain ⟨p, q, rfl⟩ : ∃ (p : Fin 512) (q : Fin 19), i = ix2 p q := ⟨i 0, i 1, eq_ix2 i⟩
  refine (val_main_v106_apply x0 x1 x2 x3 x4 x5 x6 x7 x8 (ix2 p q)).trans ?_
  rw [val_main_v105_apply, val_main_v104_apply]
  have e : idx_main_v104 (idx_main_v105 (ix2 p q)) = ix1 q := funext fun a => Fin.ext (by match a with | ⟨0, _⟩ => rfl)
  rw [e, Cert.Dense.biasRow_apply, shapeCast_a_1a_apply]
  rfl

/-- The second layer recomputes the edge lists and the degree normalization from the same edge array: the same
    terms, so the same arrays. -/
theorem v50_eq (x1 : (⟨S2x1600000, .i32⟩ : BufTy).Contents (Elt Ideal)) : val_main_v50 (F := Ideal) x1 = val_main_v6 (F := Ideal) x1 := rfl
theorem v51_eq (x1 : (⟨S2x1600000, .i32⟩ : BufTy).Contents (Elt Ideal)) : val_main_v51 (F := Ideal) x1 = val_main_v7 (F := Ideal) x1 := rfl
theorem v59_eq (x1 : (⟨S2x1600000, .i32⟩ : BufTy).Contents (Elt Ideal)) : val_main_v59 (F := Ideal) x1 = val_main_v15 (F := Ideal) x1 := rfl

end Cert.ReferenceIdeal.Stages

end
-- ==== Proof.Glue.lean ====
/-
  The host stretches between the regions, read. At every segment boundary of the program the buffers that matter hold
  a stage of the plain pipeline, stated here with the reference's own stage functions as the vocabulary:

  * before the first region: the two edge lists with the self-loops appended, and the degree normalization
    (the inverse square root of each node's in-degree, zero where the degree is not positive);
  * after each matrix-product region: the product (`Dense.lin`) of what the region read;
  * after each host stretch: the gather–scale–scatter aggregation of the product before it, and the bias vector
    viewed as a one-row array; after the last-but-one stretch, the per-graph mean;
  * after each bias region: `Dense.biasRow` (with the rectifier after the first) of what the region read.

  The host operations are the same on both sides, so a stretch is read by composing its operations' results and the
  composed term is the reference's stage by unfolding; only the six regions need an index-by-index argument, and that
  is in the `Stage` modules and in `RefStages`. The second layer reuses the first layer's edge lists and
  normalization, where the reference recomputes them from the same edge array: the same terms.
-/
import proofs.«133438_j9345848836262_1_alg».proof.Proof.Gen.KernelIdeal.Frame
import proofs.«133438_j9345848836262_1_alg».proof.Proof.Stage0
import proofs.«133438_j9345848836262_1_alg».proof.Proof.Stage1
import proofs.«133438_j9345848836262_1_alg».proof.Proof.Stage2
import proofs.«133438_j9345848836262_1_alg».proof.Proof.Stage3
import proofs.«133438_j9345848836262_1_alg».proof.Proof.Stage4
import proofs.«133438_j9345848836262_1_alg».proof.Proof.Stage5
import proofs.«133438_j9345848836262_1_alg».proof.Proof.RefStages
import proofs.«133438_j9345848836262_1_alg».proof.Proof.LibJoinPair
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## The arguments, read at the boundaries where something reads them: no host operation and no region before
    that boundary writes an argument's buffer -/

theorem W2_arg0 : W2 m ρ c (Proc.devRef .tc main_arg0) = m ((c.tc : Thread nD τ).loc main_arg0) := by
  show StableHlo.after hostOps0_1 (StableHlo.after hostOps0 (W0 m ρ c)) (Proc.devRef .tc main_arg0) = _
  after_results_simp

theorem W2_arg2 : W2 m ρ c (Proc.devRef .tc main_arg2) = m ((c.tc : Thread nD τ).loc main_arg2) := by
  show StableHlo.after hostOps0_1 (StableHlo.after hostOps0 (W0 m ρ c)) (Proc.devRef .tc main_arg2) = _
  after_results_simp
theorem W3_arg2 : W3 m ρ c (Proc.devRef .tc main_arg2) = m ((c.tc : Thread nD τ).loc main_arg2) :=
  (W3_of_ne m ρ c main_arg2 (by decide)).trans (W2_arg2 m ρ c)
theorem W4_arg2 : W4 m ρ c (Proc.devRef .tc main_arg2) = m ((c.tc : Thread nD τ).loc main_arg2) := by
  show StableHlo.after hostOps1 (W3 m ρ c) (Proc.devRef .tc main_arg2) = _
  after_results_simp
  exact W3_arg2 m ρ c
theorem W5_arg2 : W5 m ρ c (Proc.devRef .tc main_arg2) = m ((c.tc : Thread nD τ).loc main_arg2) :=
  (W5_of_ne m ρ c main_arg2 (by decide)).trans (W4_arg2 m ρ c)
theorem W6_arg2 : W6 m ρ c (Proc.devRef .tc main_arg2) = m ((c.tc : Thread nD τ).loc main_arg2) :=
  (W6_of_ne m ρ c main_arg2 (by decide)).trans (W5_arg2 m ρ c)
theorem W7_arg2 : W7 m ρ c (Proc.devRef .tc main_arg2) = m ((c.tc : Thread nD τ).loc main_arg2) := by
  show StableHlo.after hostOps3 (W6 m ρ c) (Proc.devRef .tc main_arg2) = _
  after_results_simp
  exact W6_arg2 m ρ c
theorem W8_arg2 : W8 m ρ c (Proc.devRef .tc main_arg2) = m ((c.tc : Thread nD τ).loc main_arg2) :=
  (W8_of_ne m ρ c main_arg2 (by decide)).trans (W7_arg2 m ρ c)

theorem W2_arg3 : W2 m ρ c (Proc.devRef .tc main_arg3) = m ((c.tc : Thread nD τ).loc main_arg3) := by
  show StableHlo.after hostOps0_1 (StableHlo.after hostOps0 (W0 m ρ c)) (Proc.devRef .tc main_arg3) = _
  after_results_simp

theorem W2_arg4 : W2 m ρ c (Proc.devRef .tc main_arg4) = m ((c.tc : Thread nD τ).loc main_arg4) := by
  show StableHlo.after hostOps0_1 (StableHlo.after hostOps0 (W0 m ρ c)) (Proc.devRef .tc main_arg4) = _
  after_results_simp
theorem W3_arg4 : W3 m ρ c (Proc.devRef .tc main_arg4) = m ((c.tc : Thread nD τ).loc main_arg4) :=
  (W3_of_ne m ρ c main_arg4 (by decide)).trans (W2_arg4 m ρ c)

theorem W2_arg5 : W2 m ρ c (Proc.devRef .tc main_arg5) = m ((c.tc : Thread nD τ).loc main_arg5) := by
  show StableHlo.after hostOps0_1 (StableHlo.after hostOps0 (W0 m ρ c)) (Proc.devRef .tc main_arg5) = _
  after_results_simp
theorem W3_arg5 : W3 m ρ c (Proc.devRef .tc main_arg5) = m ((c.tc : Thread nD τ).loc main_arg5) :=
  (W3_of_ne m ρ c main_arg5 (by decide)).trans (W2_arg5 m ρ c)
theorem W4_arg5 : W4 m ρ c (Proc.devRef .tc main_arg5) = m ((c.tc : Thread nD τ).loc main_arg5) := by
  show StableHlo.after hostOps1 (W3 m ρ c) (Proc.devRef .tc main_arg5) = _
  after_results_simp
  exact W3_arg5 m ρ c
theorem W5_arg5 : W5 m ρ c (Proc.devRef .tc main_arg5) = m ((c.tc : Thread nD τ).loc main_arg5) :=
  (W5_of_ne m ρ c main_arg5 (by decide)).trans (W4_arg5 m ρ c)

theorem W2_arg6 : W2 m ρ c (Proc.devRef .tc main_arg6) = m ((c.tc : Thread nD τ).loc main_arg6) := by
  show StableHlo.after hostOps0_1 (StableHlo.after hostOps0 (W0 m ρ c)) (Proc.devRef .tc main_arg6) = _
  after_results_simp
theorem W3_arg6 : W3 m ρ c (Proc.devRef .tc main_arg6) = m ((c.tc : Thread nD τ).loc main_arg6) :=
  (W3_of_ne m ρ c main_arg6 (by decide)).trans (W2_arg6 m ρ c)
theorem W4_arg6 : W4 m ρ c (Proc.devRef .tc main_arg6) = m ((c.tc : Thread nD τ).loc main_arg6) := by
  show StableHlo.after hostOps1 (W3 m ρ c) (Proc.devRef .tc main_arg6) = _
  after_results_simp
  exact W3_arg6 m ρ c
theorem W5_arg6 : W5 m ρ c (Proc.devRef .tc main_arg6) = m ((c.tc : Thread nD τ).loc main_arg6) :=
  (W5_of_ne m ρ c main_arg6 (by decide)).trans (W4_arg6 m ρ c)
theorem W6_arg6 : W6 m ρ c (Proc.devRef .tc main_arg6) = m ((c.tc : Thread nD τ).loc main_arg6) :=
  (W6_of_ne m ρ c main_arg6 (by decide)).trans (W5_arg6 m ρ c)

theorem W2_arg7 : W2 m ρ c (Proc.devRef .tc main_arg7) = m ((c.tc : Thread nD τ).loc main_arg7) := by
  show StableHlo.after hostOps0_1 (StableHlo.after hostOps0 (W0 m ρ c)) (Proc.devRef .tc main_arg7) = _
  after_results_simp
theorem W3_arg7 : W3 m ρ c (Proc.devRef .tc main_arg7) = m ((c.tc : Thread nD τ).loc main_arg7) :=
  (W3_of_ne m ρ c main_arg7 (by decide)).trans (W2_arg7 m ρ c)
theorem W4_arg7 : W4 m ρ c (Proc.devRef .tc main_arg7) = m ((c.tc : Thread nD τ).loc main_arg7) := by
  show StableHlo.after hostOps1 (W3 m ρ c) (Proc.devRef .tc main_arg7) = _
  after_results_simp
  exact W3_arg7 m ρ c
theorem W5_arg7 : W5 m ρ c (Proc.devRef .tc main_arg7) = m ((c.tc : Thread nD τ).loc main_arg7) :=
  (W5_of_ne m ρ c main_arg7 (by decide)).trans (W4_arg7 m ρ c)
theorem W6_arg7 : W6 m ρ c (Proc.devRef .tc main_arg7) = m ((c.tc : Thread nD τ).loc main_arg7) :=
  (W6_of_ne m ρ c main_arg7 (by decide)).trans (W5_arg7 m ρ c)
theorem W7_arg7 : W7 m ρ c (Proc.devRef .tc main_arg7) = m ((c.tc : Thread nD τ).loc main_arg7) := by
  show StableHlo.after hostOps3 (W6 m ρ c) (Proc.devRef .tc main_arg7) = _
  after_results_simp
  exact W6_arg7 m ρ c
theorem W8_arg7 : W8 m ρ c (Proc.devRef .tc main_arg7) = m ((c.tc : Thread nD τ).loc main_arg7) :=
  (W8_of_ne m ρ c main_arg7 (by decide)).trans (W7_arg7 m ρ c)
theorem W9_arg7 : W9 m ρ c (Proc.devRef .tc main_arg7) = m ((c.tc : Thread nD τ).loc main_arg7) := by
  show StableHlo.after hostOps4 (W8 m ρ c) (Proc.devRef .tc main_arg7) = _
  after_results_simp
  exact W8_arg7 m ρ c

theorem W2_arg8 : W2 m ρ c (Proc.devRef .tc main_arg8) = m ((c.tc : Thread nD τ).loc main_arg8) := by
  show StableHlo.after hostOps0_1 (StableHlo.after hostOps0 (W0 m ρ c)) (Proc.devRef .tc main_arg8) = _
  after_results_simp
theorem W3_arg8 : W3 m ρ c (Proc.devRef .tc main_arg8) = m ((c.tc : Thread nD τ).loc main_arg8) :=
  (W3_of_ne m ρ c main_arg8 (by decide)).trans (W2_arg8 m ρ c)
theorem W4_arg8 : W4 m ρ c (Proc.devRef .tc main_arg8) = m ((c.tc : Thread nD τ).loc main_arg8) := by
  show StableHlo.after hostOps1 (W3 m ρ c) (Proc.devRef .tc main_arg8) = _
  after_results_simp
  exact W3_arg8 m ρ c
theorem W5_arg8 : W5 m ρ c (Proc.devRef .tc main_arg8) = m ((c.tc : Thread nD τ).loc main_arg8) :=
  (W5_of_ne m ρ c main_arg8 (by decide)).trans (W4_arg8 m ρ c)
theorem W6_arg8 : W6 m ρ c (Proc.devRef .tc main_arg8) = m ((c.tc : Thread nD τ).loc main_arg8) :=
  (W6_of_ne m ρ c main_arg8 (by decide)).trans (W5_arg8 m ρ c)
theorem W7_arg8 : W7 m ρ c (Proc.devRef .tc main_arg8) = m ((c.tc : Thread nD τ).loc main_arg8) := by
  show StableHlo.after hostOps3 (W6 m ρ c) (Proc.devRef .tc main_arg8) = _
  after_results_simp
  exact W6_arg8 m ρ c
theorem W8_arg8 : W8 m ρ c (Proc.devRef .tc main_arg8) = m ((c.tc : Thread nD τ).loc main_arg8) :=
  (W8_of_ne m ρ c main_arg8 (by decide)).trans (W7_arg8 m ρ c)
theorem W9_arg8 : W9 m ρ c (Proc.devRef .tc main_arg8) = m ((c.tc : Thread nD τ).loc main_arg8) := by
  show StableHlo.after hostOps4 (W8 m ρ c) (Proc.devRef .tc main_arg8) = _
  after_results_simp
  exact W8_arg8 m ρ c
theorem W10_arg8 : W10 m ρ c (Proc.devRef .tc main_arg8) = m ((c.tc : Thread nD τ).loc main_arg8) :=
  (W10_of_ne m ρ c main_arg8 (by decide)).trans (W9_arg8 m ρ c)

/-! ## Before the first region: the edge lists and the degree normalization -/

theorem W2_src : W2 m ρ c (Proc.devRef .tc main_v5) = val_main_v6 (F := Ideal) (m ((c.tc : Thread nD τ).loc main_arg1)) := by
  show StableHlo.after hostOps0_1 (StableHlo.after hostOps0 (W0 m ρ c)) (Proc.devRef .tc main_v5) = _
  after_results_simp
  simp only [Cert.JoinPair.concatenate_pair_eq]
  after_results_simp
  rfl
theorem W2_dst : W2 m ρ c (Proc.devRef .tc main_v6) = val_main_v7 (F := Ideal) (m ((c.tc : Thread nD τ).loc main_arg1)) := by
  show StableHlo.after hostOps0_1 (StableHlo.after hostOps0 (W0 m ρ c)) (Proc.devRef .tc main_v6) = _
  after_results_simp
  simp only [Cert.JoinPair.concatenate_pair_eq]
  after_results_simp
  rfl
/-- The degree is positive: the mask the normalization selects by, after the plain stretch. -/
theorem W1_pos : W1 m ρ c (Proc.devRef .tc main_v12) = val_main_v13 (F := Ideal) (m ((c.tc : Thread nD τ).loc main_arg1)) := by
  show StableHlo.after hostOps0 (W0 m ρ c) (Proc.devRef .tc main_v12) = _
  after_results_simp
  simp only [Cert.JoinPair.concatenate_pair_eq]
  after_results_simp
  rfl
/-- The inverse square root of the degree, after the plain stretch. -/
theorem W1_rs : W1 m ρ c (Proc.devRef .tc main_v13) = val_main_v14 (F := Ideal) (m ((c.tc : Thread nD τ).loc main_arg1)) := by
  show StableHlo.after hostOps0 (W0 m ρ c) (Proc.devRef .tc main_v13) = _
  after_results_simp
  simp only [Cert.JoinPair.concatenate_pair_eq]
  after_results_simp
  rfl
/-- The zero scalar, after the plain stretch. -/
theorem W1_zero : W1 m ρ c (Proc.devRef .tc main_cst_2) = constant (F := Ideal) S_ .f32 0x00000000#32 := by
  show StableHlo.after hostOps0 (W0 m ρ c) (Proc.devRef .tc main_cst_2) = _
  after_results_simp

set_option maxHeartbeats 400000 in
/-- The selection of the outlined where, over ANY contents that hold a mask `A`, an array `B` and the zero scalar:
    `B` where the mask is set, zero elsewhere. Stated over variables so that nothing large is ever opened. -/
theorem where_stretch (Wx : Valuation τ sig (Elt Ideal)) (A : (⟨S50000, .i1⟩ : BufTy).Contents (Elt Ideal))
    (B : (⟨S50000, .f32⟩ : BufTy).Contents (Elt Ideal))
    (hA : Wx (Proc.devRef .tc main_v12) = A) (hB : Wx (Proc.devRef .tc main_v13) = B)
    (h0 : Wx (Proc.devRef .tc main_cst_2) = constant (F := Ideal) S_ .f32 0x00000000#32) :
    StableHlo.after hostOps0_1 Wx (Proc.devRef .tc main_v14)
      = select A B (broadcastInDim S50000 ![] bcast_S_S50000 (id (constant (F := Ideal) S_ .f32 0x00000000#32))) := by
  after_results_simp
  rw [hA, hB, h0]
  rfl

set_option maxHeartbeats 400000 in
theorem W2_dinv : W2 m ρ c (Proc.devRef .tc main_v14) = val_main_v15 (F := Ideal) (m ((c.tc : Thread nD τ).loc main_arg1)) :=
  (where_stretch (W1 m ρ c) _ _ (W1_pos m ρ c) (W1_rs m ρ c) (W1_zero m ρ c)).trans rfl
theorem W3_src : W3 m ρ c (Proc.devRef .tc main_v5) = val_main_v6 (F := Ideal) (m ((c.tc : Thread nD τ).loc main_arg1)) :=
  (W3_of_ne m ρ c main_v5 (by decide)).trans (W2_src m ρ c)
theorem W4_src : W4 m ρ c (Proc.devRef .tc main_v5) = val_main_v6 (F := Ideal) (m ((c.tc : Thread nD τ).loc main_arg1)) := by
  show StableHlo.after hostOps1 (W3 m ρ c) (Proc.devRef .tc main_v5) = _
  after_results_simp
  exact W3_src m ρ c
theorem W5_src : W5 m ρ c (Proc.devRef .tc main_v5) = val_main_v6 (F := Ideal) (m ((c.tc : Thread nD τ).loc main_arg1)) :=
  (W5_of_ne m ρ c main_v5 (by decide)).trans (W4_src m ρ c)
theorem W6_src : W6 m ρ c (Proc.devRef .tc main_v5) = val_main_v6 (F := Ideal) (m ((c.tc : Thread nD τ).loc main_arg1)) :=
  (W6_of_ne m ρ c main_v5 (by decide)).trans (W5_src m ρ c)

theorem W3_dst : W3 m ρ c (Proc.devRef .tc main_v6) = val_main_v7 (F := Ideal) (m ((c.tc : Thread nD τ).loc main_arg1)) :=
  (W3_of_ne m ρ c main_v6 (by decide)).trans (W2_dst m ρ c)
theorem W4_dst : W4 m ρ c (Proc.devRef .tc main_v6) = val_main_v7 (F := Ideal) (m ((c.tc : Thread nD τ).loc main_arg1)) := by
  show StableHlo.after hostOps1 (W3 m ρ c) (Proc.devRef .tc main_v6) = _
  after_results_simp
  exact W3_dst m ρ c
theorem W5_dst : W5 m ρ c (Proc.devRef .tc main_v6) = val_main_v7 (F := Ideal) (m ((c.tc : Thread nD τ).loc main_arg1)) :=
  (W5_of_ne m ρ c main_v6 (by decide)).trans (W4_dst m ρ c)
theorem W6_dst : W6 m ρ c (Proc.devRef .tc main_v6) = val_main_v7 (F := Ideal) (m ((c.tc : Thread nD τ).loc main_arg1)) :=
  (W6_of_ne m ρ c main_v6 (by decide)).trans (W5_dst m ρ c)

theorem W3_dinv : W3 m ρ c (Proc.devRef .tc main_v14) = val_main_v15 (F := Ideal) (m ((c.tc : Thread nD τ).loc main_arg1)) :=
  (W3_of_ne m ρ c main_v14 (by decide)).trans (W2_dinv m ρ c)
theorem W4_dinv : W4 m ρ c (Proc.devRef .tc main_v14) = val_main_v15 (F := Ideal) (m ((c.tc : Thread nD τ).loc main_arg1)) := by
  show StableHlo.after hostOps1 (W3 m ρ c) (Proc.devRef .tc main_v14) = _
  after_results_simp
  exact W3_dinv m ρ c
theorem W5_dinv : W5 m ρ c (Proc.devRef .tc main_v14) = val_main_v15 (F := Ideal) (m ((c.tc : Thread nD τ).loc main_arg1)) :=
  (W5_of_ne m ρ c main_v14 (by decide)).trans (W4_dinv m ρ c)
theorem W6_dinv : W6 m ρ c (Proc.devRef .tc main_v14) = val_main_v15 (F := Ideal) (m ((c.tc : Thread nD τ).loc main_arg1)) :=
  (W6_of_ne m ρ c main_v14 (by decide)).trans (W5_dinv m ρ c)

/-! ## The first layer -/

theorem W3_x1 : W3 m ρ c (Proc.devRef .tc main_v15) = val_main_v4 (F := Ideal) (m ((c.tc : Thread nD τ).loc main_arg0)) (m ((c.tc : Thread nD τ).loc main_arg3)) :=
  (W3_arr m ρ c 2).trans ((Cert.KernelIdeal.Stage0.final (V2 m ρ) c _ _ (W2_arg0 m ρ c) (W2_arg3 m ρ c)).trans
    (Cert.ReferenceIdeal.Stages.v4_eq _ _).symm)

theorem W4_agg : W4 m ρ c (Proc.devRef .tc main_v43) = val_main_v43 (F := Ideal) (m ((c.tc : Thread nD τ).loc main_arg0)) (m ((c.tc : Thread nD τ).loc main_arg1)) (m ((c.tc : Thread nD τ).loc main_arg3)) := by
  show StableHlo.after hostOps1 (W3 m ρ c) (Proc.devRef .tc main_v43) = _
  after_results_simp
  rw [W3_src m ρ c, W3_dst m ρ c, W3_dinv m ρ c, W3_x1 m ρ c]
  rfl

theorem W4_b1 : W4 m ρ c (Proc.devRef .tc main_v44) = shapeCast S1x64 (m ((c.tc : Thread nD τ).loc main_arg4)) shapeCasts_S64_S1x64 := by
  show StableHlo.after hostOps1 (W3 m ρ c) (Proc.devRef .tc main_v44) = _
  after_results_simp
  rw [W3_arg4 m ρ c]
  rfl

theorem W5_h1 : W5 m ρ c (Proc.devRef .tc main_v45) = val_main_v47 (F := Ideal) (m ((c.tc : Thread nD τ).loc main_arg0)) (m ((c.tc : Thread nD τ).loc main_arg1)) (m ((c.tc : Thread nD τ).loc main_arg3)) (m ((c.tc : Thread nD τ).loc main_arg4)) :=
  (W5_arr m ρ c 2).trans ((Cert.KernelIdeal.Stage1.final (V4 m ρ) c _ _ (W4_agg m ρ c) (W4_b1 m ρ c)).trans
    (Cert.ReferenceIdeal.Stages.v47_eq _ _ _ _ _).symm)

/-! ## The second layer -/

theorem W6_x2 : W6 m ρ c (Proc.devRef .tc main_v46) = val_main_v48 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (W6_arr m ρ c 2).trans ((Cert.KernelIdeal.Stage2.final (V5 m ρ) c _ _ (W5_h1 m ρ c) (W5_arg5 m ρ c)).trans
    (Cert.ReferenceIdeal.Stages.v48_eq _ _ _ _ _).symm)

theorem W7_agg : W7 m ρ c (Proc.devRef .tc main_v74) = val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps3 (W6 m ρ c) (Proc.devRef .tc main_v74) = _
  after_results_simp
  rw [(W6_src m ρ c).trans (Cert.ReferenceIdeal.Stages.v50_eq _).symm, (W6_dst m ρ c).trans (Cert.ReferenceIdeal.Stages.v51_eq _).symm,
    (W6_dinv m ρ c).trans (Cert.ReferenceIdeal.Stages.v59_eq _).symm, W6_x2 m ρ c]
  rfl

theorem W7_b2 : W7 m ρ c (Proc.devRef .tc main_v75) = shapeCast S1x64 (m ((c.tc : Thread nD τ).loc main_arg6)) shapeCasts_S64_S1x64 := by
  show StableHlo.after hostOps3 (W6 m ρ c) (Proc.devRef .tc main_v75) = _
  after_results_simp
  rw [W6_arg6 m ρ c]
  rfl

theorem W8_h2 : W8 m ρ c (Proc.devRef .tc main_v76) = val_main_v90 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (W8_arr m ρ c 2).trans ((Cert.KernelIdeal.Stage3.final (V7 m ρ) c _ _ (W7_agg m ρ c) (W7_b2 m ρ c)).trans
    (Cert.ReferenceIdeal.Stages.v90_eq _ _ _ _ _ _ _).symm)

/-! ## The per-graph mean and the output layer -/

theorem W9_pool : W9 m ρ c (Proc.devRef .tc main_v88) = val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps4 (W8 m ρ c) (Proc.devRef .tc main_v88) = _
  after_results_simp
  rw [W8_h2 m ρ c, W8_arg2 m ρ c]
  rfl

theorem W10_out : W10 m ρ c (Proc.devRef .tc main_v89) = val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W10_arr m ρ c 2).trans ((Cert.KernelIdeal.Stage4.final (V9 m ρ) c _ _ (W9_pool m ρ c) (W9_arg7 m ρ c)).trans
    (Cert.ReferenceIdeal.Stages.v103_eq _ _ _ _ _ _ _ _).symm)

theorem W11_out : W11 m ρ c (Proc.devRef .tc main_v89) = val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps5 (W10 m ρ c) (Proc.devRef .tc main_v89) = _
  after_results_simp
  exact W10_out m ρ c

theorem W11_b3 : W11 m ρ c (Proc.devRef .tc main_v90) = shapeCast S1x19 (m ((c.tc : Thread nD τ).loc main_arg8)) shapeCasts_S19_S1x19 := by
  show StableHlo.after hostOps5 (W10 m ρ c) (Proc.devRef .tc main_v90) = _
  after_results_simp
  rw [W10_arg8 m ρ c]
  rfl

/-- THE RESULT: at the last boundary the result's buffer holds the reference's last stage of the arguments. -/
theorem W12_result : W12 m ρ c (Proc.devRef .tc main_v91) = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W12_arr m ρ c 2).trans ((Cert.KernelIdeal.Stage5.final (V11 m ρ) c _ _ (W11_out m ρ c) (W11_b3 m ρ c)).trans
    (Cert.ReferenceIdeal.Stages.v106_eq _ _ _ _ _ _ _ _ _ _).symm)

end Cert.KernelIdeal.Glue

end
-- ==== Proof.lean ====
/-
  A two-layer graph convolution with a per-graph mean and a linear output, as six tiled dense kernels among host
  gathers and scatters, against the same pipeline written as one host program.

  Both programs compute, from node features x, an edge list, graph labels and the weights,

      deg   = number of edges into each node, self-loops included;   dinv = deg^(-1/2) where deg > 0, else 0
      agg y = for each node v, the sum over the edges (s → v) of  y[s] · dinv[s] · dinv[v]
      h1    = max (agg (x · W1) + b1, 0);   h2 = agg (h1 · W2) + b2
      out   = (per-graph sum of h2 / max (per-graph count, 1)) · W_out + b_out.

  The kernel computes the three matrix products and the three bias additions in tiled regions (row blocks that tile
  the arrays; a change of float format on the way into a product, which is the identity on extended reals; a product
  accumulated from zero) and leaves the gathers, scatters, the normalization and the mean to the very host operations
  the reference uses; it computes the edge lists and the normalization once where the reference computes them once
  per layer, from the same edge array. So on the extended reals the two results are one term: each region's output
  array is, index by index, the reference's product or bias stage of what the region read (the `Stage` modules and
  `RefStages`, over the plain functions of `Dense`), and each host stretch is the reference's stretch of the same
  operations (`Glue`). No step distributes, cancels or divides across a sum, so nothing needs the inputs to be finite.

  The kernel's run with its final memory named is `KernelRun`; the reference's run and its stages read one
  operation at a time are `RefRun` and `RefRead`. The idealization rewrote no operation, so `preserves` states nothing.
-/
import proofs.«133438_j9345848836262_1_alg».proof.Defs
import proofs.«133438_j9345848836262_1_alg».proof.Proof.Gen.Kernel
import proofs.«133438_j9345848836262_1_alg».proof.Proof.Gen.Kernel.Skeleton
import proofs.«133438_j9345848836262_1_alg».proof.Proof.Gen.Kernel.Launch
import proofs.«133438_j9345848836262_1_alg».proof.Proof.Gen.Kernel.Points
import proofs.«133438_j9345848836262_1_alg».proof.Proof.Gen.Kernel.Frame
import proofs.«133438_j9345848836262_1_alg».proof.Proof.Gen.KernelIdeal
import proofs.«133438_j9345848836262_1_alg».proof.Proof.Gen.KernelIdeal.Skeleton
import proofs.«133438_j9345848836262_1_alg».proof.Proof.Gen.KernelIdeal.Launch
import proofs.«133438_j9345848836262_1_alg».proof.Proof.Gen.KernelIdeal.Points
import proofs.«133438_j9345848836262_1_alg».proof.Proof.Gen.KernelIdeal.Frame
import proofs.«133438_j9345848836262_1_alg».proof.Proof.Gen.ReferenceIdeal
import proofs.«133438_j9345848836262_1_alg».proof.Proof.Gen.Pre_finite_inputs
import proofs.«133438_j9345848836262_1_alg».proof.Proof.KernelRun
import proofs.«133438_j9345848836262_1_alg».proof.Proof.Glue
import proofs.«133438_j9345848836262_1_alg».proof.Proof.RefRead
import Idealize.ShloMosaic.Adequacy
import Idealize.ShloMosaic.Init

noncomputable section

namespace Cert.Proof

open Idealize.ShloMosaic Idealize.SL.Sem

/-- The printed kernel runs, nothing faulting, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run read back, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the reference's last stage of the arguments in their result buffers: the kernel's by
    the fold of its segments (`Glue.W12_result`), the reference's by its run, from memories that agree on the arguments. -/
theorem algebraic : Cert.algebraic_KernelIdeal_ReferenceIdeal := by
  intro m ρ m' ρ' _ hagree
  refine ⟨fun c => Cert.ReferenceIdeal.ReadP.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Glue.W12_result m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8⟩ := hagree c
    rw [Cert.ReferenceIdeal.ReadP.val_main_v106_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
